-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64x64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S1600000x64 .f32) (main_arg2 : IVec S1600000 32) (main_arg3 : IVec S1600000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S_ : Shape := ⟨0, ![]⟩
abbrev S1600000x1 : Shape := ⟨2, ![1600000, 1]⟩

abbrev nBuf : Space → Nat
  | .hbm => 32
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x64, .f32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1x64, .f32⟩
  | .hbm, ⟨24, _⟩ => ⟨S1x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1x64, .f32⟩
  | .hbm, ⟨31, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S10000x64_S10000x64 : S10000x64.ShapeCasts S10000x64
  bcast_S_S100000x64 : S_.BroadcastsInDim S100000x64 (![] : Fin 0 → Fin S100000x64.rank)
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1600000x64.size a
  hwx1_1 : ∀ i : grid1.Coords, EltTy.bits .f32 = 32 ∨ (Rect.block (s := S1600000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S1600000x64.size a
  hwx1_6 : ∀ i : grid1.Coords, EltTy.bits .f32 = 32 ∨ (Rect.block (s := S1600000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1600000x1 : Shape := ⟨2, ![1600000, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S1600000x64, .f32⟩
  | .hbm, ⟨17, _⟩ => ⟨S1x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S1600000x64, .i1⟩
  | .hbm, ⟨26, _⟩ => ⟨S1600000x64, .f32⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S1600000x64, .f32⟩
  | .hbm, ⟨46, _⟩ => ⟨S1600000x64, .i1⟩
  | .hbm, ⟨47, _⟩ => ⟨S1600000x64, .f32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S1600000x64, .f32⟩
  | .hbm, ⟨57, _⟩ => ⟨S1600000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .i1⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_v15 : Ref sig .tc := ⟨.hbm, 54, rfl⟩
abbrev main_cst_0 : Ref sig .tc := ⟨.hbm, 55, rfl⟩
abbrev main_v16 : Ref sig .tc := ⟨.hbm, 56, rfl⟩
abbrev main_v17 : Ref sig .tc := ⟨.hbm, 57, rfl⟩
abbrev main_c : Ref sig .tc := ⟨.hbm, 58, rfl⟩
abbrev main_v18 : Ref sig .tc := ⟨.hbm, 59, rfl⟩
abbrev main_v19 : Ref sig .tc := ⟨.hbm, 60, rfl⟩
abbrev main_c_1 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_v33 : Ref sig .tc := ⟨.hbm, 89, rfl⟩
abbrev main_cst_3 : Ref sig .tc := ⟨.hbm, 90, rfl⟩
abbrev main_v34 : Ref sig .tc := ⟨.hbm, 91, rfl⟩
abbrev main_v35 : Ref sig .tc := ⟨.hbm, 92, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run, with its result named.

  The program is three pipelined regions among stretches of host operations. Every weakly fair execution from a memory
  with zero counters terminates without a fault, and at the end every buffer that outlives the regions holds what the
  fold through the program's segments says: the launch contents pushed through the first stretch of host operations, the
  first region's write-backs, the second stretch, and so on to the third region's write-backs. Read at the result buffer
  this is the last boundary's contents there; read at an argument it is the launch contents.
-/
import proofs.«171175_j40218073760108_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v16) = W6 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v16 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.Spec.lean ====
/-
  The mathematics of one message-passing layer, on the extended reals.

  A node carries 64 features, an edge carries 64 features, and every edge has a source node and a destination node.
  The layer is: project the nodes by an affine map; push every edge's features through two affine maps, each followed
  by the shifted softplus `y ↦ log (1 + e^y) - c` (with `c` the single-precision value nearest `log 2`); multiply each edge's result, feature by
  feature, with the projected features of its source node; add the products up at the destination nodes; project the
  sums by a last affine map and apply the shifted softplus once more.

  Written here, index by index over literal shapes: the shifted softplus on one extended real (`ssp`, in the spelling
  `max y 0 + log1p (exp (-|y - 0|)) - c` behind the guard `y - 0 ≠ y - 0`, which never fires on the extended
  reals), the same function in the spelling that subtracts the absolute value from zero instead of negating it
  (`sspSub`, equal to `ssp`: `0 - a = -a`), an affine map read at a row and a column (`affineAt`), and the three
  array-valued pieces built from them. Gathering the source rows and summing at the destinations are not written here:
  both sides of the comparison apply the same two operations to these pieces.
-/
import Idealize.ShloMosaic.PureOps.Ideal.Laws
import Idealize.ShloMosaic.Lib.ValueIdx

noncomputable section

namespace Cert.MessagePassing

open Idealize.ShloMosaic Idealize.ShloMosaic.ValueIdx

/-- The zero both programs add, subtract and compare against, as the pattern they write it with. -/
abbrev z : EReal := Ideal.ofBits .f32 0x00000000#32

/-- The shift: the single-precision value nearest `log 2`, as the pattern both programs write. -/
abbrev shift : EReal := Ideal.ofBits .f32 0x3F317218#32

/-- Shifted softplus of one extended real: `max y 0 + log1p (exp (-|y - 0|)) - shift`, behind a guard `y - 0 ≠ y - 0`
    that selects `y + 0` instead. -/
def ssp (y : EReal) : EReal :=
  Scalar.select (Ideal.cmp .une (y - z) (y - z)) (y + z)
    (max y z + Ideal.log1p (Ideal.exp (-(max (y - z) (-(y - z)))))) - shift

/-- The same, with the absolute value subtracted from zero instead of negated. -/
def sspSub (y : EReal) : EReal :=
  Scalar.select (Ideal.cmp .one (y - z) (y - z)) (y + z)
    (max y z + Ideal.log1p (Ideal.exp (z - (max (y - z) (-(y - z)))))) - shift

/-- Subtracting from zero is negating, and "ordered and different" is "different" where nothing is unordered. -/
theorem sspSub_eq (y : EReal) : sspSub y = ssp y := by
  unfold sspSub ssp
  rw [show (z - max (y - z) (-(y - z)) : EReal) = -(max (y - z) (-(y - z))) from by
    rw [show (z : EReal) = 0 from Ideal.ofBits_zero_f32]; exact zero_sub _]
  rfl

/-- An affine map `X · W + β` read at row `p` and column `q`: the sum over the 64 inner coordinates of
    `X (p, k) · W (k, q)`, plus the bias at `q`. -/
def affineAt {n : ℕ} (X : FVec Ideal ⟨2, ![n, 64]⟩ .f32) (W : FVec Ideal ⟨2, ![64, 64]⟩ .f32) (β : Fin 64 → EReal)
    (p : Fin n) (q : Fin 64) : EReal :=
  (∑ k : Fin 64, X (ix2 p k) * W (ix2 k q)) + β q

/-- The node projection: `X · W + β`, row by row. -/
def nodeProj (X : FVec Ideal ⟨2, ![100000, 64]⟩ .f32) (W : FVec Ideal ⟨2, ![64, 64]⟩ .f32) (β : Fin 64 → EReal) :
    FVec Ideal ⟨2, ![100000, 64]⟩ .f32 :=
  fun i => affineAt X W β (i 0) (i 1)

/-- The hidden layer of the edge network: shifted softplus of `E · W₁ + β₁`. -/
def edgeHidden (E : FVec Ideal ⟨2, ![1600000, 64]⟩ .f32) (W₁ : FVec Ideal ⟨2, ![64, 64]⟩ .f32) (β₁ : Fin 64 → EReal) :
    FVec Ideal ⟨2, ![1600000, 64]⟩ .f32 :=
  fun i => ssp (affineAt E W₁ β₁ (i 0) (i 1))

/-- The edge network: shifted softplus of `hidden · W₂ + β₂`. -/
def edgeFeat (E : FVec Ideal ⟨2, ![1600000, 64]⟩ .f32) (W₁ : FVec Ideal ⟨2, ![64, 64]⟩ .f32) (β₁ : Fin 64 → EReal)
    (W₂ : FVec Ideal ⟨2, ![64, 64]⟩ .f32) (β₂ : Fin 64 → EReal) : FVec Ideal ⟨2, ![1600000, 64]⟩ .f32 :=
  fun i => ssp (affineAt (edgeHidden E W₁ β₁) W₂ β₂ (i 0) (i 1))

/-- The message on every edge: the edge network's output times the gathered source row `g`, feature by feature. -/
def message (E : FVec Ideal ⟨2, ![1600000, 64]⟩ .f32) (g : FVec Ideal ⟨2, ![1600000, 64]⟩ .f32)
    (W₁ : FVec Ideal ⟨2, ![64, 64]⟩ .f32) (β₁ : Fin 64 → EReal)
    (W₂ : FVec Ideal ⟨2, ![64, 64]⟩ .f32) (β₂ : Fin 64 → EReal) : FVec Ideal ⟨2, ![1600000, 64]⟩ .f32 :=
  fun i => edgeFeat E W₁ β₁ W₂ β₂ i * g i

/-- The output projection: shifted softplus of `H · W + β`. -/
def outProj (H : FVec Ideal ⟨2, ![100000, 64]⟩ .f32) (W : FVec Ideal ⟨2, ![64, 64]⟩ .f32) (β : Fin 64 → EReal) :
    FVec Ideal ⟨2, ![100000, 64]⟩ .f32 :=
  fun i => ssp (affineAt H W β (i 0) (i 1))

end Cert.MessagePassing

end
-- ==== Proof.BlockPayload.lean ====
/-
  What one grid point computes from the blocks it has loaded, read at a row `p` and a column `q` of the block.

  Each of the three kernels multiplies a block of 10000 rows by a 64 × 64 weight matrix on the matrix unit, into a zero
  accumulator, and adds a bias row broadcast down the block: at `(p, q)` that is the affine map of the specification,
  `Σ_k x (p, k) · w (k, q) + b (0, q)` — the narrowing of the operands to bf16 is the identity on the extended reals.
  The output kernel then applies the shifted softplus in the spelling that subtracts from zero; the edge kernel does so
  twice, the second affine map taking the first one's activations as its left operand, and multiplies the result by the
  block of gathered source rows.
-/
import proofs.«171175_j40218073760108_2_alg».proof.Proof.Gen.KernelIdeal.Skeleton
import proofs.«171175_j40218073760108_2_alg».proof.Proof.LibPlainMatmul
import proofs.«171175_j40218073760108_2_alg».proof.Proof.Spec
import Idealize.ShloMosaic.Lib.Pipeline.Value

noncomputable section

namespace Cert.KernelIdeal.Blocks

open Idealize.ShloMosaic Idealize.ShloMosaic.ValueIdx Cert.KernelIdeal Cert.KernelIdeal.Gen Cert.MessagePassing

/-- The dimension numbers of every product in the three kernels: the left operand's columns against the right
    operand's rows. -/
abbrev D : DotDims S10000x64 S64x64 S10000x64 := dot_S10000x64_S64x64_S10000x64_1_0_0_1_n_n

theorem D_lhs_row (i : S10000x64.Idx) (r : D.contr.Idx) : (D.lhsIdx i r 0).val = (i 0).val := by
  unfold DotDims.lhsIdx
  rw [dif_neg (show ¬(0 : Fin S10000x64.rank) ∈ D.lhsBatch by decide),
    dif_pos (show (0 : Fin S10000x64.rank) ∈ D.lhsNonContracting by decide)]
  rfl

theorem D_lhs_col (i : S10000x64.Idx) (r : D.contr.Idx) : (D.lhsIdx i r 1).val = (r ⟨0, by decide⟩).val :=
  D.lhsIdx_val_of_single rfl i r

theorem D_rhs_row (i : S10000x64.Idx) (r : D.contr.Idx) : (D.rhsIdx i r 0).val = (r ⟨0, by decide⟩).val :=
  D.rhsIdx_val_of_single rfl i r

theorem D_rhs_col (i : S10000x64.Idx) (r : D.contr.Idx) : (D.rhsIdx i r 1).val = (i 1).val := by
  unfold DotDims.rhsIdx
  rw [dif_neg (show ¬(1 : Fin S64x64.rank) ∈ D.rhsBatch by decide),
    dif_pos (show (1 : Fin S64x64.rank) ∈ D.rhsNonContracting by decide)]
  rfl

/-- The bias row of a block, as a function of the column. -/
abbrev biasRow (b : Vec Ideal S1x64 .f32) : Fin 64 → EReal := fun q => b (ix2 0 q)

/-- Product into zero plus the broadcast bias row, at `(p, q)`: the affine map. -/
theorem affine_block (x : FVec Ideal S10000x64 .f32) (w : Vec Ideal S64x64 .f32) (b : Vec Ideal S1x64 .f32)
    (p : Fin 10000) (q : Fin 64) :
    addf (matmul D none (truncf .bf16 x bitsLt_bf16_f32) (truncf .bf16 w bitsLt_bf16_f32)
        (constant S10000x64 .f32 0x00000000#32))
      (broadcastTo S10000x64 (shapeCast S1x64 b shapeCasts_S1x64_S1x64) broadcasts_S1x64_S10000x64) (ix2 p q)
    = affineAt x w (biasRow b) p q := by
  rw [addf_apply, shapeCast_self]
  unfold affineAt
  refine congrArg₂ (· + ·) ?_ ?_
  · exact Cert.LibPlainMatmul.matmul_zero_at D none rfl rfl D_lhs_row D_lhs_col D_rhs_row D_rhs_col
      (truncf .bf16 x bitsLt_bf16_f32) (truncf .bf16 w bitsLt_bf16_f32) p q
  · exact broadcastTo_apply b broadcasts_S1x64_S10000x64 (ix2 p q) (ix2 0 q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])

/-- The node kernel's stored value at `(p, q)`. -/
theorem node_block (x : Vec Ideal S10000x64 .f32) (w : Vec Ideal S64x64 .f32) (b : Vec Ideal S1x64 .f32)
    (p : Fin 10000) (q : Fin 64) :
    k0_pay1 (F := Ideal) x w b (ix2 p q) = affineAt x w (biasRow b) p q := by
  unfold k0_pay1
  exact affine_block x w b p q

/-- The output kernel's stored value at `(p, q)`: the shifted softplus of the affine map. -/
theorem out_block (x : Vec Ideal S10000x64 .f32) (w : Vec Ideal S64x64 .f32) (b : Vec Ideal S1x64 .f32)
    (p : Fin 10000) (q : Fin 64) :
    k2_pay1 (F := Ideal) x w b (ix2 p q) = sspSub (affineAt x w (biasRow b) p q) := by
  unfold k2_pay1
  rw [shapeCast_self]
  exact congrArg sspSub (affine_block x w b p q)

/-- The edge kernel's second pre-activation at `(p, q)`: the affine map of the first layer's activations. -/
theorem edge_preact (x : Vec Ideal S10000x64 .f32) (w₁ : Vec Ideal S64x64 .f32) (b₁ : Vec Ideal S1x64 .f32)
    (w₂ : Vec Ideal S64x64 .f32) (b₂ : Vec Ideal S1x64 .f32) (p : Fin 10000) (q : Fin 64) :
    k1_pay2 (F := Ideal) x w₁ b₁ w₂ b₂ (ix2 p q)
      = (∑ k : Fin 64, sspSub (affineAt x w₁ (biasRow b₁) p k) * w₂ (ix2 k q)) + b₂ (ix2 0 q) := by
  unfold k1_pay2
  refine (affine_block _ w₂ b₂ p q).trans ?_
  unfold affineAt
  refine congrArg₂ (· + ·) (Finset.sum_congr rfl fun k _ => ?_) rfl
  exact congrArg (· * w₂ (ix2 k q)) (congrArg sspSub (affine_block x w₁ b₁ p k))

/-- The edge kernel's stored value at `(p, q)`: the shifted softplus of the second pre-activation, times the
    gathered source row. -/
theorem edge_block (x g : Vec Ideal S10000x64 .f32) (w₁ : Vec Ideal S64x64 .f32) (b₁ : Vec Ideal S1x64 .f32)
    (w₂ : Vec Ideal S64x64 .f32) (b₂ : Vec Ideal S1x64 .f32) (p : Fin 10000) (q : Fin 64) :
    k1_pay1 (F := Ideal) (k1_pay3 x w₁ b₁ w₂ b₂) (k1_pay5 x w₁ b₁ w₂ b₂) (k1_pay6 x w₁ b₁ w₂ b₂) (k1_pay7 x w₁ b₁ w₂ b₂)
        (k1_pay8 (F := Ideal)) g (ix2 p q)
      = sspSub ((∑ k : Fin 64, sspSub (affineAt x w₁ (biasRow b₁) p k) * w₂ (ix2 k q)) + b₂ (ix2 0 q)) * g (ix2 p q) := by
  unfold k1_pay1 k1_pay3 k1_pay5 k1_pay6 k1_pay7 k1_pay8 k1_pay4
  dsimp only
  rw [shapeCast_self]
  exact congrArg (fun y => sspSub y * g (ix2 p q)) (edge_preact x w₁ b₁ w₂ b₂ p q)

end Cert.KernelIdeal.Blocks

end
-- ==== Proof.NodeRegion.lean ====
/-
  The node projection as a pipelined kernel: ten grid points, point `t` holding rows `10000 t … 10000 t + 9999` of the node
  features, the whole weight matrix and the whole bias row, and writing back the same rows of the result.

  Stated at the contents `V` the region finds in its buffers, whatever they are: what point `t` writes back is block `t`
  of ONE function of those contents — the affine map `X · W + b` read row by row — because a row of the result depends
  only on the same row of `X`; the ten blocks tile the 100000 rows; so the result array ends holding that function.
-/
import proofs.«171175_j40218073760108_2_alg».proof.Proof.Gen.KernelIdeal.Frame
import proofs.«171175_j40218073760108_2_alg».proof.Proof.BlockPayload
import Idealize.ShloMosaic.Lib.Pipeline.Value

noncomputable section

namespace Cert.KernelIdeal.NodeRegion

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.MessagePassing

variable (V : (c : Dev nD) → (b : Ref sig .tc) → Buf (Elt Ideal) ((c : Thread nD τ).loc b))

theorem hz : (![0, 0] : Fin 2 → Nat) = fun _ => 0 := funext fun a => by fin_cases a <;> rfl

/-- The region's result as one function of what it finds: `X · W + b`, the bias read off its one row. -/
def result (c : Dev nD) : FVec Ideal S100000x64 .f32 :=
  nodeProj (V c main_arg0) (V c main_arg4) (biasRow (V c main_v0))

/-- The index maps over the grid: the row-tiled windows sit at block `(t, 0)`, the others at block `(0, 0)`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One point's stored value at a position of its block is the affine map at the array position `r` rows further
    down, when the point's row block `x` is rows `r …` of `X`. -/
theorem point (x : Vec Ideal S10000x64 .f32) (w : Vec Ideal S64x64 .f32) (b : Vec Ideal S1x64 .f32)
    (X : FVec Ideal S100000x64 .f32) (W : FVec Ideal S64x64 .f32) (B : Vec Ideal S1x64 .f32) (r : ℕ)
    (hx : ∀ (y : S10000x64.Idx) (i : S100000x64.Idx), (i 0).val = r + (y 0).val → (i 1).val = (y 1).val → x y = X i)
    (hw : w = W) (hb : b = B)
    (y : S10000x64.Idx) (i : S100000x64.Idx) (h0 : (i 0).val = r + (y 0).val) (h1 : (i 1).val = (y 1).val) :
    k0_pay1 (F := Ideal) x w b y = nodeProj X W (biasRow B) i := by
  subst hw hb
  obtain ⟨p, q, rfl⟩ : ∃ (p : Fin 10000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  obtain rfl : q' = q := Fin.ext h1
  rw [node_block]
  show affineAt x w (biasRow b) p q' = affineAt X w (biasRow b) p' q'
  unfold affineAt
  refine congrArg₂ (· + ·) (Finset.sum_congr rfl fun k _ => ?_) rfl
  exact congrArg (· * w (ix2 k q')) (hx (ix2 p k) (ix2 p' k) h0 rfl)

/-- WHAT POINT `t` WRITES BACK is block `t` of `result`. -/
theorem flushed (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := index_maps t
  funext j
  refine point (iblk0 V c 0 t) (iblk0 V c 1 t) (iblk0 V c 2 t) (V c main_arg0) (V c main_arg4) (V c main_v0)
    (win0_3.index t (0 : Fin 2) * 10000) ?_ ?_ ?_ j (((cfg0.win 3).blk t).view.emb j) ?_ ?_
  · intro y i h0 h1
    unfold iblk0
    rw [View.read_apply]
    show V c main_arg0 (((cfg0.win 0).blk t).view.emb y) = V c main_arg0 i
    refine congrArg (V c main_arg0) (funext fun a => Fin.ext ?_)
    match a with
    | ⟨0, _⟩ => show win0_0.index t (0 : Fin 2) * 10000 + 1 * (y 0).val = (i 0).val; omega
    | ⟨1, _⟩ => show win0_0.index t (1 : Fin 2) * 64 + 1 * (y 1).val = (i 1).val; omega
  · funext y
    unfold iblk0
    rw [View.read_apply]
    show V c main_arg4 (((cfg0.win 1).blk t).view.emb y) = V c main_arg4 y
    refine congrArg (V c main_arg4) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · funext y
    unfold iblk0
    rw [View.read_apply]
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · show win0_3.index t (0 : Fin 2) * 10000 + 1 * (j 0).val = win0_3.index t (0 : Fin 2) * 10000 + (j 0).val; omega
  · show win0_3.index t (1 : Fin 2) * 64 + 1 * (j 1).val = (j 1).val; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v1).slice (win0_3.rect t)).set ↔ _
  rw [View.set_slice_whole, Rect.mem_set_unit]
  exact Iff.rfl

/-- Row `r` lies in the block of point `r / 10000`: the ten blocks tile the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e30, e31⟩ := index_maps t
  have ht : t.val = (i 0).val / 10000 := rfl
  refine ⟨t, flush0_3 t, (mem_blk t i).mpr fun a => ?_⟩
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE RESULT ARRAY after the region: the affine map of what the region found. -/
theorem final (c : Dev nD) : (dat0 V c).arrAt 3 cfg0.N = result V c :=
  (dat0 V c).arrAt_eq_of_cover 3 (result V c) (fun t _ => flushed V c t) cover

end Cert.KernelIdeal.NodeRegion

end
-- ==== Proof.EdgeRegion.lean ====
/-
  The edge network fused with the product by the gathered source rows, as a pipelined kernel: 160 grid points, point `t`
  holding rows `10000 t … 10000 t + 9999` of the edge features and the same rows of the gathered node projections, the
  two whole weight matrices and bias rows, and writing back the same rows of the messages.

  Stated at the contents `V` the region finds in its buffers: what point `t` writes back is block `t` of ONE function of
  those contents — on every edge, the shifted softplus of the second affine map of the shifted softplus of the first,
  times the gathered row — because row `r` of the messages depends only on row `r` of the two row-tiled inputs; the 160
  blocks tile the 1600000 rows; so the message array ends holding that function.
-/
import proofs.«171175_j40218073760108_2_alg».proof.Proof.Gen.KernelIdeal.Frame
import proofs.«171175_j40218073760108_2_alg».proof.Proof.BlockPayload
import Idealize.ShloMosaic.Lib.Pipeline.Value

noncomputable section

namespace Cert.KernelIdeal.EdgeRegion

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.MessagePassing

variable (V : (c : Dev nD) → (b : Ref sig .tc) → Buf (Elt Ideal) ((c : Thread nD τ).loc b))

theorem hz : (![0, 0] : Fin 2 → Nat) = fun _ => 0 := funext fun a => by fin_cases a <;> rfl

/-- The region's result as one function of what it finds: the message on every edge. -/
def result (c : Dev nD) : FVec Ideal S1600000x64 .f32 :=
  message (V c main_arg1) (V c main_v8) (V c main_arg6) (biasRow (V c main_v9)) (V c main_arg8) (biasRow (V c main_v10))

/-- The index maps over the grid: the three row-tiled windows sit at block `(t, 0)`, the others at block `(0, 0)`. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One point's stored value at a position of its block is the message at the array position `r` rows further down,
    when the point's two row blocks are rows `r …` of the edge features and of the gathered rows. -/
theorem point (x g : Vec Ideal S10000x64 .f32) (w₁ : Vec Ideal S64x64 .f32) (b₁ : Vec Ideal S1x64 .f32)
    (w₂ : Vec Ideal S64x64 .f32) (b₂ : Vec Ideal S1x64 .f32)
    (X G : FVec Ideal S1600000x64 .f32) (W₁ : FVec Ideal S64x64 .f32) (B₁ : Vec Ideal S1x64 .f32)
    (W₂ : FVec Ideal S64x64 .f32) (B₂ : Vec Ideal S1x64 .f32) (r : ℕ)
    (hx : ∀ (y : S10000x64.Idx) (i : S1600000x64.Idx), (i 0).val = r + (y 0).val → (i 1).val = (y 1).val → x y = X i)
    (hg : ∀ (y : S10000x64.Idx) (i : S1600000x64.Idx), (i 0).val = r + (y 0).val → (i 1).val = (y 1).val → g y = G i)
    (hw₁ : w₁ = W₁) (hb₁ : b₁ = B₁) (hw₂ : w₂ = W₂) (hb₂ : b₂ = B₂)
    (y : S10000x64.Idx) (i : S1600000x64.Idx) (h0 : (i 0).val = r + (y 0).val) (h1 : (i 1).val = (y 1).val) :
    k1_pay1 (F := Ideal) (k1_pay3 x w₁ b₁ w₂ b₂) (k1_pay5 x w₁ b₁ w₂ b₂) (k1_pay6 x w₁ b₁ w₂ b₂) (k1_pay7 x w₁ b₁ w₂ b₂)
        (k1_pay8 (F := Ideal)) g y
      = message X G W₁ (biasRow B₁) W₂ (biasRow B₂) i := by
  subst hw₁ hb₁ hw₂ hb₂
  obtain ⟨p, q, rfl⟩ : ∃ (p : Fin 10000) (q : Fin 64), y = ix2 p q := ⟨y 0, y 1, eq_ix2 y⟩
  obtain ⟨p', q', rfl⟩ : ∃ (p' : Fin 1600000) (q' : Fin 64), i = ix2 p' q' := ⟨i 0, i 1, eq_ix2 i⟩
  obtain rfl : q' = q := Fin.ext h1
  rw [edge_block]
  simp only [sspSub_eq]
  show ssp ((∑ k : Fin 64, ssp (affineAt x w₁ (biasRow b₁) p k) * w₂ (ix2 k q')) + biasRow b₂ q') * g (ix2 p q')
    = ssp ((∑ k : Fin 64, ssp (affineAt X w₁ (biasRow b₁) p' k) * w₂ (ix2 k q')) + biasRow b₂ q') * G (ix2 p' q')
  refine congrArg₂ (· * ·) (congrArg ssp (congrArg₂ (· + ·) (Finset.sum_congr rfl fun k _ => ?_) rfl))
    (hg (ix2 p q') (ix2 p' q') h0 rfl)
  refine congrArg (· * w₂ (ix2 k q')) (congrArg ssp ?_)
  unfold affineAt
  refine congrArg₂ (· + ·) (Finset.sum_congr rfl fun k' _ => ?_) rfl
  exact congrArg (· * w₁ (ix2 k' k)) (hx (ix2 p k') (ix2 p' k') h0 rfl)

/-- WHAT POINT `t` WRITES BACK is block `t` of `result`. -/
theorem flushed (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61⟩ := index_maps t
  funext j
  refine point (iblk1 V c 0 t) (iblk1 V c 1 t) (iblk1 V c 2 t) (iblk1 V c 3 t) (iblk1 V c 4 t) (iblk1 V c 5 t)
    (V c main_arg1) (V c main_v8) (V c main_arg6) (V c main_v9) (V c main_arg8) (V c main_v10)
    (win1_6.index t (0 : Fin 2) * 10000) ?_ ?_ ?_ ?_ ?_ ?_ j (((cfg1.win 6).blk t).view.emb j) ?_ ?_
  · intro y i h0 h1
    unfold iblk1
    rw [View.read_apply]
    show V c main_arg1 (((cfg1.win 0).blk t).view.emb y) = V c main_arg1 i
    refine congrArg (V c main_arg1) (funext fun a => Fin.ext ?_)
    match a with
    | ⟨0, _⟩ => show win1_0.index t (0 : Fin 2) * 10000 + 1 * (y 0).val = (i 0).val; omega
    | ⟨1, _⟩ => show win1_0.index t (1 : Fin 2) * 64 + 1 * (y 1).val = (i 1).val; omega
  · intro y i h0 h1
    unfold iblk1
    rw [View.read_apply]
    show V c main_v8 (((cfg1.win 1).blk t).view.emb y) = V c main_v8 i
    refine congrArg (V c main_v8) (funext fun a => Fin.ext ?_)
    match a with
    | ⟨0, _⟩ => show win1_1.index t (0 : Fin 2) * 10000 + 1 * (y 0).val = (i 0).val; omega
    | ⟨1, _⟩ => show win1_1.index t (1 : Fin 2) * 64 + 1 * (y 1).val = (i 1).val; omega
  · funext y
    unfold iblk1
    rw [View.read_apply]
    show V c main_arg6 (((cfg1.win 2).blk t).view.emb y) = V c main_arg6 y
    refine congrArg (V c main_arg6) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    unfold iblk1
    rw [View.read_apply]
    show V c main_v9 (((cfg1.win 3).blk t).view.emb y) = V c main_v9 y
    refine congrArg (V c main_v9) (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  · funext y
    unfold iblk1
    rw [View.read_apply]
    show V c main_arg8 (((cfg1.win 4).blk t).view.emb y) = V c main_arg8 y
    refine congrArg (V c main_arg8) (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  · funext y
    unfold iblk1
    rw [View.read_apply]
    show V c main_v10 (((cfg1.win 5).blk t).view.emb y) = V c main_v10 y
    refine congrArg (V c main_v10) (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega
  · show win1_6.index t (0 : Fin 2) * 10000 + 1 * (j 0).val = win1_6.index t (0 : Fin 2) * 10000 + (j 0).val; omega
  · show win1_6.index t (1 : Fin 2) * 64 + 1 * (j 1).val = (j 1).val; omega

/-- An index of the message array is in point `t`'s block iff each coordinate is in the block's range on its axis. -/
theorem mem_blk (t : Fin cfg1.N) (i : S1600000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v11).slice (win1_6.rect t)).set ↔ _
  rw [View.set_slice_whole, Rect.mem_set_unit]
  exact Iff.rfl

/-- Row `r` lies in the block of point `r / 10000`: the 160 blocks tile the array. -/
theorem cover (i : S1600000x64.Idx) :
    ∃ t : Fin cfg1.N, (cfg1.win 6).flush t = true ∧ i ∈ ((cfg1.win 6).blk t).view.set := by
  have hi0 : (i 0).val < 1600000 := (i 0).isLt
  have hi1 : (i 1).val < 64 := (i 1).isLt
  have hN : cfg1.N = 160 := N_1
  let t : Fin cfg1.N := ⟨(i 0).val / 10000, by rw [hN]; omega⟩
  obtain ⟨-, -, -, -, -, -, -, -, -, -, -, -, e60, e61⟩ := index_maps t
  have ht : t.val = (i 0).val / 10000 := rfl
  refine ⟨t, flush1_6 t, (mem_blk t i).mpr fun a => ?_⟩
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- THE MESSAGE ARRAY after the region: the message of what the region found, on every edge. -/
theorem final (c : Dev nD) : (dat1 V c).arrAt 6 cfg1.N = result V c :=
  (dat1 V c).arrAt_eq_of_cover 6 (result V c) (fun t _ => flushed V c t) cover

end Cert.KernelIdeal.EdgeRegion

end
-- ==== Proof.OutRegion.lean ====
/-
  The output projection as a pipelined kernel: ten grid points, point `t` holding rows `10000 t … 10000 t + 9999` of the
  aggregated messages, the whole weight matrix and the whole bias row, and writing back the same rows of the result.

  Stated at the contents `V` the region finds in its buffers: what point `t` writes back is block `t` of ONE function of
  those contents — the shifted softplus of the affine map `H · W + b`, row by row (the kernel's spelling of the softplus,
  subtracting from zero, is the specification's) —; the ten blocks tile the 100000 rows; so the result array ends
  holding that function.
-/
import proofs.«171175_j40218073760108_2_alg».proof.Proof.Gen.KernelIdeal.Frame
import proofs.«171175_j40218073760108_2_alg».proof.Proof.BlockPayload
import Idealize.ShloMosaic.Lib.Pipeline.Value

noncomputable section

namespace Cert.KernelIdeal.OutRegion

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.MessagePassing

variable (V : (c : Dev nD) → (b : Ref sig .tc) → Buf (Elt Ideal) ((c : Thread nD τ).loc b))

theorem hz : (![0, 0] : Fin 2 → Nat) = fun _ => 0 := funext fun a => by fin_cases a <;> rfl

/-- The region's result as one function of what it finds: the shifted softplus of `H · W + b`, the bias read off its one row. -/
def result (c : Dev nD) : FVec Ideal S100000x64 .f32 :=
  outProj (V c main_v14) (V c main_arg10) (biasRow (V c main_v15))

/-- The index maps over the grid: the row-tiled windows sit at block `(t, 0)`, the others at block `(0, 0)`. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One point's stored value at a position of its block is the shifted softplus of the affine map at the array
    position `r` rows further down, when the point's row block `x` is rows `r …` of `X`. -/
theorem point (x : Vec Ideal S10000x64 .f32) (w : Vec Ideal S64x64 .f32) (b : Vec Ideal S1x64 .f32)
    (X : FVec Ideal S100000x64 .f32) (W : FVec Ideal S64x64 .f32) (B : Vec Ideal S1x64 .f32) (r : ℕ)
    (hx : ∀ (y : S10000x64.Idx) (i : S100000x64.Idx), (i 0).val = r + (y 0).val → (i 1).val = (y 1).val → x y = X i)
    (hw : w = W) (hb : b = B)
    (y : S10000x64.Idx) (i : S100000x64.Idx) (h0 : (i 0).val = r + (y 0).val) (h1 : (i 1).val = (y 1).val) :
    k2_pay1 (F := Ideal) x w b y = outProj X W (biasRow B) i := by
  subst hw hb
  obtain ⟨p, q, rfl⟩ : ∃ (p : Fin 10000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  obtain rfl : q' = q := Fin.ext h1
  rw [out_block, sspSub_eq]
  show ssp (affineAt x w (biasRow b) p q') = ssp (affineAt X w (biasRow b) p' q')
  refine congrArg ssp ?_
  unfold affineAt
  refine congrArg₂ (· + ·) (Finset.sum_congr rfl fun k _ => ?_) rfl
  exact congrArg (· * w (ix2 k q')) (hx (ix2 p k) (ix2 p' k) h0 rfl)

/-- WHAT POINT `t` WRITES BACK is block `t` of `result`. -/
theorem flushed (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := index_maps t
  funext j
  refine point (iblk2 V c 0 t) (iblk2 V c 1 t) (iblk2 V c 2 t) (V c main_v14) (V c main_arg10) (V c main_v15)
    (win2_3.index t (0 : Fin 2) * 10000) ?_ ?_ ?_ j (((cfg2.win 3).blk t).view.emb j) ?_ ?_
  · intro y i h0 h1
    unfold iblk2
    rw [View.read_apply]
    show V c main_v14 (((cfg2.win 0).blk t).view.emb y) = V c main_v14 i
    refine congrArg (V c main_v14) (funext fun a => Fin.ext ?_)
    match a with
    | ⟨0, _⟩ => show win2_0.index t (0 : Fin 2) * 10000 + 1 * (y 0).val = (i 0).val; omega
    | ⟨1, _⟩ => show win2_0.index t (1 : Fin 2) * 64 + 1 * (y 1).val = (i 1).val; omega
  · funext y
    unfold iblk2
    rw [View.read_apply]
    show V c main_arg10 (((cfg2.win 1).blk t).view.emb y) = V c main_arg10 y
    refine congrArg (V c main_arg10) (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  · funext y
    unfold iblk2
    rw [View.read_apply]
    show V c main_v15 (((cfg2.win 2).blk t).view.emb y) = V c main_v15 y
    refine congrArg (V c main_v15) (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  · show win2_3.index t (0 : Fin 2) * 10000 + 1 * (j 0).val = win2_3.index t (0 : Fin 2) * 10000 + (j 0).val; omega
  · show win2_3.index t (1 : Fin 2) * 64 + 1 * (j 1).val = (j 1).val; omega

/-- An index of the result array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v16).slice (win2_3.rect t)).set ↔ _
  rw [View.set_slice_whole, Rect.mem_set_unit]
  exact Iff.rfl

/-- Row `r` lies in the block of point `r / 10000`: the ten blocks tile the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, -, -, e30, e31⟩ := index_maps t
  have ht : t.val = (i 0).val / 10000 := rfl
  refine ⟨t, flush2_3 t, (mem_blk t i).mpr fun a => ?_⟩
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- THE RESULT ARRAY after the region: the shifted softplus of the affine map of what the region found. -/
theorem final (c : Dev nD) : (dat2 V c).arrAt 3 cfg2.N = result V c :=
  (dat2 V c).arrAt_eq_of_cover 3 (result V c) (fun t _ => flushed V c t) cover

end Cert.KernelIdeal.OutRegion

end
-- ==== Proof.KernelValue.lean ====
/-
  What the kernel program leaves in its result buffer, as a function of the launch memory.

  Following the fold through the program backwards from the result: the third region leaves `outProj` of what it finds
  in its three input buffers; of those the first was written by the scatter that adds the second region's messages up at
  the destination rows, the other two are an argument and a reshaped argument; the second region leaves `message` of
  what it finds, its gathered rows written by the gather of the first region's result at the (wrapped) source indices;
  the first region leaves `nodeProj` of two arguments and a reshaped one. No host operation and no region writes an
  argument, so every argument read along the way is the launch memory's. A bias reshaped from `[64]` to `[1, 64]` and
  read at `(0, q)` is the bias at `q`.
-/
import proofs.«171175_j40218073760108_2_alg».proof.Proof.Gen.KernelIdeal.Frame
import proofs.«171175_j40218073760108_2_alg».proof.Proof.NodeRegion
import proofs.«171175_j40218073760108_2_alg».proof.Proof.EdgeRegion
import proofs.«171175_j40218073760108_2_alg».proof.Proof.OutRegion
import Idealize.ShloMosaic.Lib.StableHlo.Run
import Idealize.ShloMosaic.Lib.ValueLayout

set_option maxRecDepth 16384

noncomputable section

namespace Cert.KernelIdeal.Result

open Idealize.ShloMosaic Idealize.ShloMosaic.TcCoe Idealize.SL.Sem Idealize.ShloMosaic.StableHlo Idealize.ShloMosaic.ValueIdx
open Cert.KernelIdeal Cert.KernelIdeal.Gen Cert.KernelIdeal.Blocks Cert.MessagePassing

variable (m : (ℓ : Loc nD τ sig) → Buf (Elt Ideal) ℓ) (ρ : Dev nD → PrngReg)

/-- A bias vector as a function of the column. -/
abbrev biasVec (b : FVec Ideal S64 .f32) : Fin 64 → EReal := fun q => b (ix1 q)

/-- The bias row of a vector reshaped to one row is the vector. -/
theorem biasRow_reshape (b : FVec Ideal S64 .f32) : biasRow (shapeCast S1x64 b shapeCasts_S64_S1x64) = biasVec b :=
  funext fun q => shapeCast_a_1a_apply b shapeCasts_S64_S1x64 0 q

/-! ## The arguments along the fold: never written -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W3_arg1 (c : Dev nD) : W3 m ρ c (Proc.devRef .tc main_arg1) = m ((c : Thread nD τ).loc main_arg1) := by
  show StableHlo.after hostOps1 (W2 m ρ c) (Proc.devRef .tc main_arg1) = _
  after_results; exact W2_arg1 m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results; exact W2_arg3 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results; exact W2_arg6 m ρ c
theorem W3_arg8 (c : Dev nD) : W3 m ρ c (Proc.devRef .tc main_arg8) = m ((c : Thread nD τ).loc main_arg8) := by
  show StableHlo.after hostOps1 (W2 m ρ c) (Proc.devRef .tc main_arg8) = _
  after_results; exact W2_arg8 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results; exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results; exact W2_arg11 m ρ c
theorem W4_arg3 (c : Dev nD) : W4 m ρ c (Proc.devRef .tc main_arg3) = m ((c : Thread nD τ).loc main_arg3) :=
  (W4_of_ne m ρ c main_arg3 (by decide)).trans (W3_arg3 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)

/-! ## The first region: the node projection -/

theorem W1_v0 (c : Dev nD) : W1 m ρ c (Proc.devRef .tc main_v0)
    = shapeCast S1x64 (m ((c : Thread nD τ).loc main_arg5)) shapeCasts_S64_S1x64 := by
  show StableHlo.after hostOps0 (W0 m ρ c) (Proc.devRef .tc main_v0) = _
  after_results; rfl

/-- The projected node features, as the first region leaves them. -/
theorem W2_v1 (c : Dev nD) : W2 m ρ c (Proc.devRef .tc main_v1)
    = nodeProj (m ((c : Thread nD τ).loc main_arg0)) (m ((c : Thread nD τ).loc main_arg4))
        (biasVec (m ((c : Thread nD τ).loc main_arg5))) := by
  refine (W2_arr m ρ c 3).trans ((NodeRegion.final (V1 m ρ) c).trans ?_)
  unfold NodeRegion.result
  show nodeProj (W1 m ρ c (Proc.devRef .tc main_arg0)) (W1 m ρ c (Proc.devRef .tc main_arg4))
    (biasRow (W1 m ρ c (Proc.devRef .tc main_v0))) = _
  rw [W1_arg0, W1_arg4, W1_v0, biasRow_reshape]

/-! ## The second region: the messages -/

/-- The source indices, negative ones wrapped around, as a column. -/
abbrev srcIdx (x2 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x2 (broadcastInDim S1600000 ![] bcast_S_S1600000 (constantI S_ 32 0#32)))
      (addi x2 (broadcastInDim S1600000 ![] bcast_S_S1600000 (constantI S_ 32 100000#32))) x2)

theorem W3_v8 (c : Dev nD) : W3 m ρ c (Proc.devRef .tc main_v8)
    = Host.gather gather_S100000x64_S1600000x1_S1600000x64_1_0_n_n_0_1_164
        (nodeProj (m ((c : Thread nD τ).loc main_arg0)) (m ((c : Thread nD τ).loc main_arg4))
          (biasVec (m ((c : Thread nD τ).loc main_arg5))))
        (srcIdx (m ((c : Thread nD τ).loc main_arg2))) := by
  show StableHlo.after hostOps1 (W2 m ρ c) (Proc.devRef .tc main_v8) = _
  after_results
  rw [W2_v1, W2_arg2]

theorem W3_v9 (c : Dev nD) : W3 m ρ c (Proc.devRef .tc main_v9)
    = shapeCast S1x64 (m ((c : Thread nD τ).loc main_arg7)) shapeCasts_S64_S1x64 := by
  show StableHlo.after hostOps1 (W2 m ρ c) (Proc.devRef .tc main_v9) = _
  after_results
  rw [W2_arg7]; rfl

theorem W3_v10 (c : Dev nD) : W3 m ρ c (Proc.devRef .tc main_v10)
    = shapeCast S1x64 (m ((c : Thread nD τ).loc main_arg9)) shapeCasts_S64_S1x64 := by
  show StableHlo.after hostOps1 (W2 m ρ c) (Proc.devRef .tc main_v10) = _
  after_results
  rw [W2_arg9]; rfl

/-- The messages, as the second region leaves them. -/
theorem W4_v11 (c : Dev nD) : W4 m ρ c (Proc.devRef .tc main_v11)
    = message (m ((c : Thread nD τ).loc main_arg1))
        (Host.gather gather_S100000x64_S1600000x1_S1600000x64_1_0_n_n_0_1_164
          (nodeProj (m ((c : Thread nD τ).loc main_arg0)) (m ((c : Thread nD τ).loc main_arg4))
            (biasVec (m ((c : Thread nD τ).loc main_arg5))))
          (srcIdx (m ((c : Thread nD τ).loc main_arg2))))
        (m ((c : Thread nD τ).loc main_arg6)) (biasVec (m ((c : Thread nD τ).loc main_arg7)))
        (m ((c : Thread nD τ).loc main_arg8)) (biasVec (m ((c : Thread nD τ).loc main_arg9))) := by
  refine (W4_arr m ρ c 6).trans ((EdgeRegion.final (V3 m ρ) c).trans ?_)
  unfold EdgeRegion.result
  show message (W3 m ρ c (Proc.devRef .tc main_arg1)) (W3 m ρ c (Proc.devRef .tc main_v8))
    (W3 m ρ c (Proc.devRef .tc main_arg6)) (biasRow (W3 m ρ c (Proc.devRef .tc main_v9)))
    (W3 m ρ c (Proc.devRef .tc main_arg8)) (biasRow (W3 m ρ c (Proc.devRef .tc main_v10))) = _
  rw [W3_arg1, W3_v8, W3_arg6, W3_v9, W3_arg8, W3_v10, biasRow_reshape, biasRow_reshape]

/-! ## The third region: the result -/

/-- The kernel program's result, as a function of the twelve arguments. -/
def value (x0 : FVec Ideal S100000x64 .f32) (x1 : FVec Ideal S1600000x64 .f32)
    (x2 x3 : (⟨S1600000, .i32⟩ : BufTy).Contents (Elt Ideal))
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32) :
    FVec Ideal S100000x64 .f32 :=
  outProj
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 x3)
      (message x1
        (Host.gather gather_S100000x64_S1600000x1_S1600000x64_1_0_n_n_0_1_164 (nodeProj x0 x4 (biasVec x5)) (srcIdx x2))
        x6 (biasVec x7) x8 (biasVec x9)))
    x10 (biasVec x11)

theorem W5_v14 (c : Dev nD) : W5 m ρ c (Proc.devRef .tc main_v14)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (m ((c : Thread nD τ).loc main_arg3)))
        (W4 m ρ c (Proc.devRef .tc main_v11)) := by
  show StableHlo.after hostOps2 (W4 m ρ c) (Proc.devRef .tc main_v14) = _
  after_results
  rw [W4_arg3]

theorem W5_arg10 (c : Dev nD) : W5 m ρ c (Proc.devRef .tc main_arg10) = m ((c : Thread nD τ).loc main_arg10) := by
  show StableHlo.after hostOps2 (W4 m ρ c) (Proc.devRef .tc main_arg10) = _
  after_results; exact W4_arg10 m ρ c

theorem W5_v15 (c : Dev nD) : W5 m ρ c (Proc.devRef .tc main_v15)
    = shapeCast S1x64 (m ((c : Thread nD τ).loc main_arg11)) shapeCasts_S64_S1x64 := by
  show StableHlo.after hostOps2 (W4 m ρ c) (Proc.devRef .tc main_v15) = _
  after_results
  rw [W4_arg11]; rfl

/-- THE RESULT BUFFER at the last boundary is `value` of the launch memory's arguments. -/
theorem W6_v16 (c : Dev nD) : W6 m ρ c (Proc.devRef .tc main_v16)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W6_arr m ρ c 3).trans ((OutRegion.final (V5 m ρ) c).trans ?_)
  unfold OutRegion.result value
  show outProj (W5 m ρ c (Proc.devRef .tc main_v14)) (W5 m ρ c (Proc.devRef .tc main_arg10))
    (biasRow (W5 m ρ c (Proc.devRef .tc main_v15))) = _
  rw [W5_v14, W5_arg10, W5_v15, W4_v11, biasRow_reshape]

end Cert.KernelIdeal.Result

end
-- ==== Proof.RefIndex.lean ====
/-
  The reference's contractions and bias broadcasts read at a row `p` and a column `q`: which element of each operand
  enters. A contraction `[n, 64] · [64, 64]` at `(p, q)` and inner coordinate `k` reads `(p, k)` on the left and `(k, q)` on
  the right; a bias `[64]` broadcast to one row and then down all rows reads `q`.
-/
import proofs.«171175_j40218073760108_2_alg».proof.Proof.Gen.ReferenceIdeal.Read
import proofs.«171175_j40218073760108_2_alg».proof.Proof.Spec

noncomputable section

namespace Cert.ReferenceIdeal.Stages

open Idealize.ShloMosaic Idealize.ShloMosaic.ValueIdx
open Cert.ReferenceIdeal Cert.ReferenceIdeal.Read Cert.MessagePassing

/-- A bias vector as a function of the column. -/
abbrev biasVec (b : FVec Ideal S64 .f32) : Fin 64 → EReal := fun q => b (ix1 q)

theorem lidx_v0 (p : Fin 100000) (q k : Fin 64) : lidx_main_v0 (ix2 p q) k = ix2 p k :=
  funext fun a => Fin.ext (by match a with | ⟨0, _⟩ => rfl | ⟨1, _⟩ => rfl)
theorem ridx_v0 (p : Fin 100000) (q k : Fin 64) : ridx_main_v0 (ix2 p q) k = ix2 k q :=
  funext fun a => Fin.ext (by match a with | ⟨0, _⟩ => rfl | ⟨1, _⟩ => rfl)
theorem bias_v2 (p : Fin 100000) (q : Fin 64) : idx_main_v1 (idx_main_v2 (ix2 p q)) = ix1 q :=
  funext fun a => Fin.ext (by match a with | ⟨0, _⟩ => rfl)
theorem lidx_v4 (p : Fin 1600000) (q k : Fin 64) : lidx_main_v4 (ix2 p q) k = ix2 p k :=
  funext fun a => Fin.ext (by match a with | ⟨0, _⟩ => rfl | ⟨1, _⟩ => rfl)
theorem ridx_v4 (p : Fin 1600000) (q k : Fin 64) : ridx_main_v4 (ix2 p q) k = ix2 k q :=
  funext fun a => Fin.ext (by match a with | ⟨0, _⟩ => rfl | ⟨1, _⟩ => rfl)
theorem bias_v6 (p : Fin 1600000) (q : Fin 64) : idx_main_v5 (idx_main_v6 (ix2 p q)) = ix1 q :=
  funext fun a => Fin.ext (by match a with | ⟨0, _⟩ => rfl)
theorem lidx_v11 (p : Fin 1600000) (q k : Fin 64) : lidx_main_v11 (ix2 p q) k = ix2 p k :=
  funext fun a => Fin.ext (by match a with | ⟨0, _⟩ => rfl | ⟨1, _⟩ => rfl)
theorem ridx_v11 (p : Fin 1600000) (q k : Fin 64) : ridx_main_v11 (ix2 p q) k = ix2 k q :=
  funext fun a => Fin.ext (by match a with | ⟨0, _⟩ => rfl | ⟨1, _⟩ => rfl)
theorem bias_v13 (p : Fin 1600000) (q : Fin 64) : idx_main_v12 (idx_main_v13 (ix2 p q)) = ix1 q :=
  funext fun a => Fin.ext (by match a with | ⟨0, _⟩ => rfl)
theorem lidx_v29 (p : Fin 100000) (q k : Fin 64) : lidx_main_v29 (ix2 p q) k = ix2 p k :=
  funext fun a => Fin.ext (by match a with | ⟨0, _⟩ => rfl | ⟨1, _⟩ => rfl)
theorem ridx_v29 (p : Fin 100000) (q k : Fin 64) : ridx_main_v29 (ix2 p q) k = ix2 k q :=
  funext fun a => Fin.ext (by match a with | ⟨0, _⟩ => rfl | ⟨1, _⟩ => rfl)
theorem bias_v31 (p : Fin 100000) (q : Fin 64) : idx_main_v30 (idx_main_v31 (ix2 p q)) = ix1 q :=
  funext fun a => Fin.ext (by match a with | ⟨0, _⟩ => rfl)

end Cert.ReferenceIdeal.Stages

end
-- ==== Proof.RefNode.lean ====
/-
  The reference's node projection — a contraction of the node features with the weights, plus the bias broadcast down
  the rows — is `nodeProj`.
-/
import proofs.«171175_j40218073760108_2_alg».proof.Proof.Gen.ReferenceIdeal.Read
import proofs.«171175_j40218073760108_2_alg».proof.Proof.Spec
import proofs.«171175_j40218073760108_2_alg».proof.Proof.RefIndex

noncomputable section

namespace Cert.ReferenceIdeal.Stages

open Idealize.ShloMosaic Idealize.ShloMosaic.ValueIdx
open Cert.ReferenceIdeal Cert.ReferenceIdeal.Read Cert.MessagePassing

/-! ## The node projection -/

/-- The reference's node projection is `X · W + b`. -/
theorem node_stage (x0 : FVec Ideal S100000x64 .f32) (x4 : FVec Ideal S64x64 .f32) (x5 : FVec Ideal S64 .f32) :
    val_main_v3 (F := Ideal) x0 x4 x5 = nodeProj x0 x4 (biasVec x5) := by
  funext i
  obtain ⟨p, q, rfl⟩ : ∃ (p : Fin 100000) (q : Fin 64), i = ix2 p q := ⟨i 0, i 1, eq_ix2 i⟩
  rw [val_main_v3_apply, val_main_v0_apply, val_main_v2_apply, val_main_v1_apply]
  simp only [lidx_v0, ridx_v0, bias_v2]
  rfl

end Cert.ReferenceIdeal.Stages

end
-- ==== Proof.RefEdge.lean ====
/-
  The reference's edge network is `edgeFeat`: each of its two layers is a contraction plus a broadcast bias, read at a row
  and a column as the affine map, followed by the shifted softplus written out elementwise — with a negation where the
  kernels subtract from zero, which is the specification's own spelling.
-/
import proofs.«171175_j40218073760108_2_alg».proof.Proof.Gen.ReferenceIdeal.Read
import proofs.«171175_j40218073760108_2_alg».proof.Proof.Spec
import proofs.«171175_j40218073760108_2_alg».proof.Proof.RefIndex

noncomputable section

namespace Cert.ReferenceIdeal.Stages

open Idealize.ShloMosaic Idealize.ShloMosaic.ValueIdx
open Cert.ReferenceIdeal Cert.ReferenceIdeal.Read Cert.MessagePassing

/-! ## The edge network -/

/-- The first pre-activation at a row and a column. -/
theorem edge_pre1 (x1 : FVec Ideal S1600000x64 .f32) (x6 : FVec Ideal S64x64 .f32) (x7 : FVec Ideal S64 .f32)
    (p : Fin 1600000) (q : Fin 64) :
    val_main_v7 (F := Ideal) x1 x6 x7 (ix2 p q) = affineAt x1 x6 (biasVec x7) p q := by
  rw [val_main_v7_apply, val_main_v4_apply, val_main_v6_apply, val_main_v5_apply]
  simp only [lidx_v4, ridx_v4, bias_v6]
  rfl

/-- The first activation is the shifted softplus of the first pre-activation, element by element. -/
theorem edge_act1 (x1 : FVec Ideal S1600000x64 .f32) (x6 : FVec Ideal S64x64 .f32) (x7 : FVec Ideal S64 .f32)
    (i : S1600000x64.Idx) :
    val_main_v10 (F := Ideal) x1 x6 x7 i = ssp (val_main_v7 (F := Ideal) x1 x6 x7 i) := by
  simp only [val_main_v10_apply, val_main_v8_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, val_main_call0_v0_apply, val_main_call0_v2_apply, val_main_call0_v5_apply, val_main_call0_cst_apply,
    val_main_v9_apply, val_main_cst_apply]
  generalize val_main_v7 (F := Ideal) x1 x6 x7 i = y
  rfl

/-- The second pre-activation at a row and a column: the affine map of the first activations. -/
theorem edge_pre2 (x1 : FVec Ideal S1600000x64 .f32) (x6 : FVec Ideal S64x64 .f32) (x7 : FVec Ideal S64 .f32)
    (x8 : FVec Ideal S64x64 .f32) (x9 : FVec Ideal S64 .f32) (p : Fin 1600000) (q : Fin 64) :
    val_main_v14 (F := Ideal) x1 x6 x7 x8 x9 (ix2 p q)
      = (∑ k : Fin 64, val_main_v10 (F := Ideal) x1 x6 x7 (ix2 p k) * x8 (ix2 k q)) + biasVec x9 q := by
  rw [val_main_v14_apply, val_main_v11_apply, val_main_v13_apply, val_main_v12_apply]
  simp only [lidx_v11, ridx_v11, bias_v13]
  rfl

/-- The second activation is the shifted softplus of the second pre-activation, element by element. -/
theorem edge_act2 (x1 : FVec Ideal S1600000x64 .f32) (x6 : FVec Ideal S64x64 .f32) (x7 : FVec Ideal S64 .f32)
    (x8 : FVec Ideal S64x64 .f32) (x9 : FVec Ideal S64 .f32) (i : S1600000x64.Idx) :
    val_main_v17 (F := Ideal) x1 x6 x7 x8 x9 i = ssp (val_main_v14 (F := Ideal) x1 x6 x7 x8 x9 i) := by
  simp only [val_main_v17_apply, val_main_v15_apply, val_main_call1_v4_apply, val_main_call1_v6_apply, val_main_call1_v11_apply,
    val_main_call1_v1_apply, val_main_call1_v10_apply, val_main_call1_v9_apply, val_main_call1_v8_apply, val_main_call1_v7_apply,
    val_main_call1_v3_apply, val_main_call1_v0_apply, val_main_call1_v2_apply, val_main_call1_v5_apply, val_main_call1_cst_apply,
    val_main_v16_apply, val_main_cst_0_apply]
  generalize val_main_v14 (F := Ideal) x1 x6 x7 x8 x9 i = y
  rfl

/-- The reference's edge network is `edgeFeat`. -/
theorem edge_stage (x1 : FVec Ideal S1600000x64 .f32) (x6 : FVec Ideal S64x64 .f32) (x7 : FVec Ideal S64 .f32)
    (x8 : FVec Ideal S64x64 .f32) (x9 : FVec Ideal S64 .f32) :
    val_main_v17 (F := Ideal) x1 x6 x7 x8 x9 = edgeFeat x1 x6 (biasVec x7) x8 (biasVec x9) := by
  funext i
  obtain ⟨p, q, rfl⟩ : ∃ (p : Fin 1600000) (q : Fin 64), i = ix2 p q := ⟨i 0, i 1, eq_ix2 i⟩
  rw [edge_act2, edge_pre2]
  show ssp ((∑ k : Fin 64, val_main_v10 (F := Ideal) x1 x6 x7 (ix2 p k) * x8 (ix2 k q)) + biasVec x9 q)
    = ssp ((∑ k : Fin 64, ssp (affineAt x1 x6 (biasVec x7) p k) * x8 (ix2 k q)) + biasVec x9 q)
  refine congrArg ssp (congrArg₂ (· + ·) (Finset.sum_congr rfl fun k _ => ?_) rfl)
  rw [edge_act1, edge_pre1]

end Cert.ReferenceIdeal.Stages

end
-- ==== Proof.RefOut.lean ====
/-
  The reference's result is `outProj` of whatever array its scatter produced: a contraction of that array with the output
  weights plus the broadcast bias, then the shifted softplus written out elementwise. The scatter's result is left as
  the operation it is.
-/
import proofs.«171175_j40218073760108_2_alg».proof.Proof.Gen.ReferenceIdeal.Read
import proofs.«171175_j40218073760108_2_alg».proof.Proof.Spec
import proofs.«171175_j40218073760108_2_alg».proof.Proof.RefIndex

noncomputable section

namespace Cert.ReferenceIdeal.Stages

open Idealize.ShloMosaic Idealize.ShloMosaic.ValueIdx
open Cert.ReferenceIdeal Cert.ReferenceIdeal.Read Cert.MessagePassing

/-! ## The output projection, of whatever array the scatter produced -/

/-- The last pre-activation at a row and a column: the affine map of the scattered sums. -/
theorem out_pre (x0 : FVec Ideal S100000x64 .f32) (x1 : FVec Ideal S1600000x64 .f32) (x2 x3 : (⟨S1600000, .i32⟩ : BufTy).Contents (Elt Ideal))
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (p : Fin 100000) (q : Fin 64) :
    val_main_v32 (F := Ideal) x0 x1 x2 x3 x4 x5 x6 x7 x8 x9 x10 x11 (ix2 p q)
      = affineAt (val_main_v28 (F := Ideal) x0 x1 x2 x3 x4 x5 x6 x7 x8 x9) x10 (biasVec x11) p q := by
  rw [val_main_v32_apply, val_main_v29_apply, val_main_v31_apply, val_main_v30_apply]
  generalize val_main_v28 (F := Ideal) x0 x1 x2 x3 x4 x5 x6 x7 x8 x9 = H
  simp only [lidx_v29, ridx_v29, bias_v31]
  rfl

/-- The result is the shifted softplus of the last pre-activation, element by element. -/
theorem out_act (x0 : FVec Ideal S100000x64 .f32) (x1 : FVec Ideal S1600000x64 .f32) (x2 x3 : (⟨S1600000, .i32⟩ : BufTy).Contents (Elt Ideal))
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (i : S100000x64.Idx) :
    val_main_v35 (F := Ideal) x0 x1 x2 x3 x4 x5 x6 x7 x8 x9 x10 x11 i = ssp (val_main_v32 (F := Ideal) x0 x1 x2 x3 x4 x5 x6 x7 x8 x9 x10 x11 i) := by
  rw [val_main_v35_apply, val_main_v33_apply, val_main_call2_v4_apply, val_main_call2_v6_apply, val_main_call2_v11_apply,
    val_main_call2_v1_apply, val_main_call2_v10_apply, val_main_call2_v9_apply, val_main_call2_v8_apply, val_main_call2_v7_apply,
    val_main_call2_v3_apply, val_main_call2_v0_apply, val_main_call2_v2_apply, val_main_call2_v5_apply, val_main_call2_cst_apply,
    val_main_v34_apply, val_main_cst_3_apply]
  generalize val_main_v32 (F := Ideal) x0 x1 x2 x3 x4 x5 x6 x7 x8 x9 x10 x11 i = y
  rfl

/-- The reference's result is `outProj` of the scattered sums. -/
theorem out_stage (x0 : FVec Ideal S100000x64 .f32) (x1 : FVec Ideal S1600000x64 .f32) (x2 x3 : (⟨S1600000, .i32⟩ : BufTy).Contents (Elt Ideal))
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32) :
    val_main_v35 (F := Ideal) x0 x1 x2 x3 x4 x5 x6 x7 x8 x9 x10 x11
      = outProj (val_main_v28 (F := Ideal) x0 x1 x2 x3 x4 x5 x6 x7 x8 x9) x10 (biasVec x11) := by
  funext i
  obtain ⟨p, q, rfl⟩ : ∃ (p : Fin 100000) (q : Fin 64), i = ix2 p q := ⟨i 0, i 1, eq_ix2 i⟩
  rw [out_act, out_pre]
  generalize val_main_v28 (F := Ideal) x0 x1 x2 x3 x4 x5 x6 x7 x8 x9 = H
  rfl

end Cert.ReferenceIdeal.Stages

end
-- ==== Proof.Bridge.lean ====
/-
  The two programs compute one function of the twelve arguments.

  Both results are `outProj` of an array of sums scattered to the destination rows, with the same output weights and
  bias; the scattered arrays are the same scatter — the same zero array, the same destination indices — of the messages;
  and on every edge the reference's message is the gathered source row times the edge network's output, the kernel's the
  edge network's output times the gathered source row, the gathers being the same gather of the same node projection at
  the same wrapped source indices. Commutativity of the product on the extended reals joins the two; it holds at the
  infinities as well, so nothing here uses that the inputs are finite.
-/
import proofs.«171175_j40218073760108_2_alg».proof.Proof.RefNode
import proofs.«171175_j40218073760108_2_alg».proof.Proof.RefEdge
import proofs.«171175_j40218073760108_2_alg».proof.Proof.RefOut
import proofs.«171175_j40218073760108_2_alg».proof.Proof.KernelValue

noncomputable section

namespace Cert.Bridge

open Idealize.ShloMosaic Idealize.ShloMosaic.ValueIdx Cert.MessagePassing
open Cert.ReferenceIdeal.Read Cert.ReferenceIdeal.Stages

/-- The reference's result stage is the kernel program's `value`. -/
theorem result_eq (x0 : FVec Ideal Cert.KernelIdeal.S100000x64 .f32) (x1 : FVec Ideal Cert.KernelIdeal.S1600000x64 .f32)
    (x2 x3 : (⟨Cert.KernelIdeal.S1600000, .i32⟩ : BufTy).Contents (Elt Ideal))
    (x4 : FVec Ideal Cert.KernelIdeal.S64x64 .f32) (x5 : FVec Ideal Cert.KernelIdeal.S64 .f32)
    (x6 : FVec Ideal Cert.KernelIdeal.S64x64 .f32) (x7 : FVec Ideal Cert.KernelIdeal.S64 .f32)
    (x8 : FVec Ideal Cert.KernelIdeal.S64x64 .f32) (x9 : FVec Ideal Cert.KernelIdeal.S64 .f32)
    (x10 : FVec Ideal Cert.KernelIdeal.S64x64 .f32) (x11 : FVec Ideal Cert.KernelIdeal.S64 .f32) :
    val_main_v35 (F := Ideal) x0 x1 x2 x3 x4 x5 x6 x7 x8 x9 x10 x11 = Cert.KernelIdeal.Result.value x0 x1 x2 x3 x4 x5 x6 x7 x8 x9 x10 x11 := by
  -- the pieces both sides share, as the kernel program spells them
  have hzero : val_main_v26 (F := Ideal)
      = broadcastInDim Cert.KernelIdeal.S100000x64 ![] Cert.KernelIdeal.Gen.bcast_S_S100000x64
          (constant (F := Ideal) Cert.KernelIdeal.S_ .f32 0x00000000#32) := rfl
  have hdst : val_main_v27 (F := Ideal) x3
      = broadcastInDim Cert.KernelIdeal.S1600000x1 ![0] Cert.KernelIdeal.Gen.bcast_S1600000_S1600000x1_0 x3 := rfl
  have hsrc : val_main_v23 (F := Ideal) x2 = Cert.KernelIdeal.Result.srcIdx x2 := rfl
  have hscatter : Cert.ReferenceIdeal.scatter_S100000x64_S1600000x1_S1600000x64_1_0_0_1
      = Cert.KernelIdeal.scatter_S100000x64_S1600000x1_S1600000x64_1_0_0_1 := rfl
  have hgather : Cert.ReferenceIdeal.gather_S100000x64_S1600000x1_S1600000x64_1_0_n_n_0_1_164
      = Cert.KernelIdeal.gather_S100000x64_S1600000x1_S1600000x64_1_0_n_n_0_1_164 := rfl
  -- the messages: the factors in the other order
  have hmsg : val_main_v25 (F := Ideal) x0 x1 x2 x4 x5 x6 x7 x8 x9
      = message x1 (Host.gather Cert.KernelIdeal.gather_S100000x64_S1600000x1_S1600000x64_1_0_n_n_0_1_164
          (nodeProj x0 x4 (Cert.KernelIdeal.Result.biasVec x5)) (Cert.KernelIdeal.Result.srcIdx x2))
          x6 (Cert.KernelIdeal.Result.biasVec x7) x8 (Cert.KernelIdeal.Result.biasVec x9) := by
    unfold val_main_v25 val_main_v24
    rw [node_stage, edge_stage, hsrc, hgather]
    generalize Host.gather Cert.KernelIdeal.gather_S100000x64_S1600000x1_S1600000x64_1_0_n_n_0_1_164
      (nodeProj x0 x4 (biasVec x5)) (Cert.KernelIdeal.Result.srcIdx x2) = g
    funext i
    exact mul_comm _ _
  rw [out_stage]
  unfold Cert.KernelIdeal.Result.value val_main_v28
  rw [hmsg, hzero, hdst, hscatter]

end Cert.Bridge

end
-- ==== Proof.lean ====
/-
  One message-passing layer of a graph network — node projection, a two-layer edge network with shifted softplus,
  product with the gathered source rows, sum at the destination rows, output projection with shifted softplus — as
  three pipelined kernels with a gather and a scatter between them, against the same layer written with whole-array
  operations. On the extended reals the two compute one function of the twelve arguments:

  * each kernel's result array is one whole-array function of what the kernel finds in its inputs, because a row of
    the result depends only on the same row of the row-tiled inputs and the blocks tile the rows
    (Proof/NodeRegion.lean, Proof/EdgeRegion.lean, Proof/OutRegion.lean over Proof/BlockPayload.lean);
  * the kernel program's run ends with its result buffer at the fold of those functions through the gather and the
    scatter between the regions, every argument read along the way being the launch memory's
    (Proof/KernelRun.lean, Proof/KernelValue.lean);
  * the reference's stages are the same functions (Proof/RefNode.lean, Proof/RefEdge.lean, Proof/RefOut.lean);
  * the two differ only in the order of the factors of the product on each edge (Proof/Bridge.lean).

  Narrowing to bf16 is the identity here, a product on the matrix unit into a zero accumulator is the contraction, the
  guard against an undefined difference never fires, and subtracting from zero is negating. The frames are the
  generated ones; nothing is rewritten by the idealization, so the fourth claim is trivial.
-/
import proofs.«171175_j40218073760108_2_alg».proof.Defs
import proofs.«171175_j40218073760108_2_alg».proof.Proof.Gen.Kernel
import proofs.«171175_j40218073760108_2_alg».proof.Proof.Gen.Kernel.Frame
import proofs.«171175_j40218073760108_2_alg».proof.Proof.Gen.KernelIdeal
import proofs.«171175_j40218073760108_2_alg».proof.Proof.Gen.KernelIdeal.Frame
import proofs.«171175_j40218073760108_2_alg».proof.Proof.Gen.ReferenceIdeal
import proofs.«171175_j40218073760108_2_alg».proof.Proof.Gen.Pre_finite_inputs
import proofs.«171175_j40218073760108_2_alg».proof.Proof.Gen.ReferenceIdeal.Run
import proofs.«171175_j40218073760108_2_alg».proof.Proof.Gen.ReferenceIdeal.Read
import proofs.«171175_j40218073760108_2_alg».proof.Proof.KernelRun
import proofs.«171175_j40218073760108_2_alg».proof.Proof.KernelValue
import proofs.«171175_j40218073760108_2_alg».proof.Proof.Bridge

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `value` of the arguments: the kernel program by its run and the fold
    through its regions, the reference by its run, its result stage and the bridge. -/
theorem algebraic : Cert.algebraic_KernelIdeal_ReferenceIdeal := by
  intro m ρ m' ρ' _ hagree
  refine ⟨fun c => Cert.KernelIdeal.Result.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Result.W6_v16 m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq]
    obtain ⟨e0, e1, e2, e3, e4, e5, e6, e7, e8, e9, e10, e11⟩ := hagree c
    rw [e0, e1, e2, e3, e4, e5, e6, e7, e8, e9, e10, e11]
    exact Cert.Bridge.result_eq _ _ _ _ _ _ _ _ _ _ _ _

end Claims

theorem claim : Cert.Claim := ⟨Cert.Kernel.Gen.facts, Cert.KernelIdeal.Gen.facts, Cert.ReferenceIdeal.Gen.facts, Cert.Pre_finite_inputs.Gen.facts,
  Claims.frame_kernel, Claims.frame_kernel_ideal, Claims.frame_reference, Claims.preserves, Claims.algebraic⟩

end Cert.Proof

end
